-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x4096 : Shape := ⟨2, ![1024, 4096]⟩
abbrev S256x4096 : Shape := ⟨2, ![256, 4096]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S1024x4096, .bf16⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | .local _ .vmem, ⟨6, _⟩ => ⟨S4096x4096, .bf16⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  packedbf16_S1024x4096_S1024x4096_0_0 : (Rect.unit (s := S1024x4096) ![0, 0] S1024x4096.size inb_S1024x4096_S1024x4096_0_0).PackedRows (EltTy.packing .bf16)
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .f32 = 32 ∨ (Rect.block (s := S8192x4096) S256x4096.size (cc1_transform_2 i) (hinb1_2 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  The mathematics of a binarized linear layer on the extended reals.

  A weight `a` is replaced by its sign with zero counted as positive: `sgnw a` is `+1` when `0 ≤ a` and `-1` otherwise,
  and `binz w` applies that to every entry of a weight matrix. Clamping a weight to `[-1, 1]` first does not move it
  across zero, so `sgnw` of the clamped weight is `sgnw` of the weight (`sgnw_clip`).

  The layer's output is the matrix product `mm x (binz w)`. A product computed in two limbs — the left operand, plus
  the left operand minus itself — is `split2 x b = mm x b + mm (x - x) b`. On an extended real that is a real
  number `a - a = 0`, and `0 · y = 0` for every extended real `y`, so when every entry of `x` is finite the second limb
  is a sum of zeros and `split2 x b = mm x b` (`split2_eq_mm`). At an infinite entry `a - a` is `-∞`, which is why the
  finiteness of `x` is used.
-/
import proofs.«108958_j14027363189197_2_alg».proof.Proof.LibDense
import Idealize.ShloMosaic.PureOps.Ideal.Laws
import Idealize.ShloMosaic.Lib.IdealHost

noncomputable section

open scoped BigOperators

namespace Cert.BinLinear

open Idealize.ShloMosaic Idealize.ShloMosaic.ValueIdx Cert.Dense

/-- The sign of a weight with zero counted as positive: `+1` when `0 ≤ a`, else `-1` (the two values kept as the
    float words that denote them). -/
def sgnw (a : EReal) : EReal :=
  Scalar.select (Ideal.cmp .oge a (Ideal.ofBits .f32 0x00000000#32))
    (Ideal.ofBits .f32 0x3F800000#32) (Ideal.ofBits .f32 0xBF800000#32)

/-- Every entry of a matrix replaced by its sign. -/
def binz {a b : ℕ} (w : Mat a b) : Mat a b := fun i => sgnw (w i)

/-- The float word of minus one denotes a negative number. -/
theorem negOne_lt_zero : Ideal.ofBits .f32 0xBF800000#32 < 0 := by
  have h : Ideal.ofBits .f32 0xBF800000#32 = ((-(1 : ℝ)) : EReal) := by
    simp [Ideal.ofBits, Ideal.ieee, -EReal.coe_mul, -EReal.coe_neg]; norm_num
  rw [h]
  exact EReal.coe_neg'.mpr (by norm_num)

/-- Clamping to `[-1, 1]` keeps a weight on its side of zero. -/
theorem zero_le_clip_iff (a : EReal) :
    0 ≤ min (Ideal.ofBits .f32 0x3F800000#32) (max (Ideal.ofBits .f32 0xBF800000#32) a) ↔ 0 ≤ a := by
  rw [le_min_iff, le_max_iff, Ideal.ofBits_one_f32]
  constructor
  · rintro ⟨-, h | h⟩
    · exact absurd h (not_le.mpr negOne_lt_zero)
    · exact h
  · intro h
    exact ⟨zero_le_one, Or.inr h⟩

/-- The sign of a clamped weight is the sign of the weight. -/
theorem sgnw_clip (a : EReal) :
    sgnw (min (Ideal.ofBits .f32 0x3F800000#32) (max (Ideal.ofBits .f32 0xBF800000#32) a)) = sgnw a := by
  unfold sgnw Ideal.cmp
  simp only [Ideal.ofBits_zero_f32, zero_le_clip_iff]

/-- The product computed in two limbs: the left operand, plus the left operand minus itself. -/
def split2 {M K N : ℕ} (X : Mat M K) (B : Mat K N) : Mat M N :=
  fun i => mm X B i + mm (fun k => X k - X k) B i

/-- An entry of the two-limb product depends on one row of the left operand and one column of the right. -/
theorem split2_congr {M M' K N N' : ℕ} (X : Mat M K) (X' : Mat M' K) (B : Mat K N) (B' : Mat K N')
    (i : (⟨2, ![M, N]⟩ : Shape).Idx) (j : (⟨2, ![M', N']⟩ : Shape).Idx)
    (hX : ∀ k : Fin K, X' (ix2 (c0 j) k) = X (ix2 (c0 i) k))
    (hB : ∀ k : Fin K, B' (ix2 k (c1 j)) = B (ix2 k (c1 i))) :
    split2 X' B' j = split2 X B i := by
  unfold split2 mm
  simp only [hX, hB]

/-- With a finite left operand the second limb vanishes: `a - a = 0` on the reals and `0 · y = 0` on every
    extended real. -/
theorem split2_eq_mm {M K N : ℕ} (X : Mat M K) (B : Mat K N) (hX : ∀ k, ∃ r : ℝ, X k = (r : EReal)) :
    split2 X B = mm X B := by
  funext i
  unfold split2
  have h0 : mm (fun k => X k - X k) B i = 0 := by
    unfold mm
    refine Finset.sum_eq_zero fun k _ => ?_
    obtain ⟨r, hr⟩ := hX (ix2 (c0 i) k)
    show (X (ix2 (c0 i) k) - X (ix2 (c0 i) k)) * B (ix2 k (c1 i)) = 0
    rw [hr, ← EReal.coe_sub, sub_self, EReal.coe_zero, zero_mul]
  rw [h0, add_zero]

/-- The layer: the input times the binarized weights. -/
def out {M K N : ℕ} (x : Mat M K) (w : Mat K N) : Mat M N := mm x (binz w)

end Cert.BinLinear

end
-- ==== Proof.Finite.lean ====
/-
  From the precondition to real numbers.

  The precondition says that the conjunction, over every entry of each input, of `|a| < +∞` is true. A conjunction
  over all entries that is true is true at each entry, and an extended real whose absolute value `max a (-a)` lies
  below `+∞` is neither `+∞` nor `-∞`: it is a real number.
-/
import proofs.«108958_j14027363189197_2_alg».proof.Pre_finite_inputs
import Idealize.ShloMosaic.PureOps.Ideal.Laws
import Idealize.ShloMosaic.Lib.ReduceAll
import Idealize.ShloMosaic.Lib.IdealHost

noncomputable section

namespace Cert.BinLinear

open Idealize.ShloMosaic Idealize.ShloMosaic.ValueIdx

instance subsingleton_scalar_idx : Subsingleton Cert.Pre_finite_inputs.S_.Idx := ⟨fun a b => funext fun d => d.elim0⟩

/-- The float word of `+∞` denotes the top of the extended reals. -/
theorem ofBits_inf_f32 : Ideal.ofBits .f32 0x7F800000#32 = ⊤ := by
  simp [Ideal.ofBits, Ideal.ieee]

/-- An extended real whose absolute value is below `+∞` is a real number. -/
theorem real_of_abs_lt_top (a : EReal) (h : Ideal.cmp .olt (max a (-a)) (Ideal.ofBits .f32 0x7F800000#32) = 1#1) :
    ∃ r : ℝ, a = (r : EReal) := by
  rw [ofBits_inf_f32] at h
  have hlt : max a (-a) < ⊤ := by
    unfold Ideal.cmp at h
    by_contra hn
    simp [hn] at h
  induction a using EReal.rec with
  | bot => simp at hlt
  | top => simp at hlt
  | coe r => exact ⟨r, rfl⟩

/-- Under the precondition every entry of the first input is a real number. -/
theorem finite_arg0 [Cert.Pre_finite_inputs.Facts] (x : FVec Ideal Cert.Pre_finite_inputs.S8192x4096 .f32)
    (w : FVec Ideal Cert.Pre_finite_inputs.S4096x4096 .f32)
    (h : Cert.Pre_finite_inputs.fn (F := Ideal) x w = fun _ => 1#1) (i : Cert.Pre_finite_inputs.S8192x4096.Idx) :
    ∃ r : ℝ, x i = (r : EReal) := by
  have h0 := congrFun h ix0
  dsimp only [Cert.Pre_finite_inputs.fn, andi] at h0
  obtain ⟨h1, -⟩ := IntOp.andi_eq_one.1 h0
  have h2 := Host.reduce_andi_all _ _ _ _ _ h1 i
  refine real_of_abs_lt_top (x i) ?_
  rw [← h2]
  show _ = Ideal.cmp .olt (max (x i) (-(x i))) (broadcastInDim Cert.Pre_finite_inputs.S8192x4096 ![] _ (constant (F := Ideal) Cert.Pre_finite_inputs.S_ .f32 0x7F800000#32) i)
  rw [broadcastInDim_scalar_apply]
  rfl

end Cert.BinLinear

end
-- ==== Proof.Region0.lean ====
/-
  The first kernel region: the weights binarized, block by block.

  The grid has four points; point `t` reads rows `1024·t … 1024·t + 1023` of the weight matrix and writes the same rows
  of the binarized matrix, each entry replaced by its sign (`+1` when `0 ≤ a`, else `-1`; the narrowing of the float
  format that follows is the identity on the extended reals). The input and the output block sit at the same place in
  their arrays, so what point `t` writes back is block `t` of ONE whole-array function, `binz` of the weights as the
  region finds them; the four blocks tile the array (row `r` lies in block `r / 1024`), so the array ends holding `binz`
  of the weights.
-/
import proofs.«108958_j14027363189197_2_alg».proof.Proof.Gen.KernelIdeal.Frame
import proofs.«108958_j14027363189197_2_alg».proof.Proof.Spec
import Idealize.ShloMosaic.Lib.Pipeline.Value

set_option maxRecDepth 16384

noncomputable section

namespace Cert.KernelIdeal.Binarize

open Idealize.ShloMosaic Idealize.ShloMosaic.TcCoe Idealize.SL.Sem
open Cert.KernelIdeal Cert.KernelIdeal.Gen Cert.BinLinear

variable (V : (c : Dev nD) → (b : Ref sig .tc) → Buf (Elt Ideal) ((c : Thread nD τ).loc b))

theorem origin : (![0, 0] : Fin 2 → Nat) = fun _ => 0 := funext fun a => by fin_cases a <;> rfl

/-- The body's stored value: every loaded entry replaced by its sign. -/
theorem pay_eq (x0 : Vec Ideal S1024x4096 .f32) : k0_pay1 (F := Ideal) x0 = fun j => sgnw (x0 j) := rfl

/-- The printed index maps, decided over the grid: the input block and the output block of a point are the same
    block of their arrays, the row block below four and the column block zero. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 3 ∧ win0_1.index t (1 : Fin 2) = 0 :=
  (by decide +kernel : ∀ t : Fin grid0.N, _)

/-- Every row block is some point's. -/
theorem idx_onto : ∀ q0 : Fin 4, ∃ t : Fin cfg0.N, win0_1.index t = ![q0.val, 0] :=
  (by decide +kernel : ∀ q0 : Fin 4, ∃ t : Fin grid0.N, win0_1.index t = ![q0.val, 0])

/-- What point `t` writes back is block `t` of the binarized weights. -/
theorem flushed_eq (c : Dev nD) (t : Fin cfg0.N) :
    (dat0 V c).flushed 1 t = ((cfg0.win 1).blk t).view.read (Elt Ideal) (binz (V c main_arg1)) := by
  show (cfg0.win 1).cut (grid0.coords t) ((dat0 V c).after 1 t) = _
  rw [after0_1]
  unfold out0_1
  rw [View.canon_unit_zero origin]
  simp only [View.ld_unit_zero (S := S1024x4096) origin]
  rw [pay_eq]
  obtain ⟨e0, e1, e2, e3⟩ := idx_facts t
  funext j
  show sgnw (V c main_arg1 (((cfg0.win 0).blk t).view.emb j)) = sgnw (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 4096 + 1 * (j 1).val = win0_1.index t (1 : Fin 2) * 4096 + 1 * (j 1).val; omega
  rw [h0]

/-- An index of the array is in point `t`'s block iff each coordinate is in the block's range on its axis. -/
theorem mem_blk (t : Fin cfg0.N) (i : S4096x4096.Idx) :
    i ∈ ((cfg0.win 1).blk t).view.set ↔ ∀ a : Fin 2, win0_1.index t a * S1024x4096.size a ≤ (i a).val ∧ (i a).val < win0_1.index t a * S1024x4096.size a + S1024x4096.size a := by
  show i ∈ ((View.whole main_call0_v0).slice (win0_1.rect t)).set ↔ _
  rw [View.set_slice_whole, Rect.mem_set_unit]
  exact Iff.rfl

/-- The four blocks tile the array: row `r` lies in block `r / 1024`. -/
theorem cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := idx_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 4096 ≤ (i 1).val ∧ (i 1).val < win0_1.index t (1 : Fin 2) * 4096 + 4096; omega

/-- The binarized-weights array after the region: `binz` of the weights as the region finds them. -/
theorem final (c : Dev nD) : (dat0 V c).arrAt 1 cfg0.N = binz (V c main_arg1) :=
  (dat0 V c).arrAt_eq_of_cover 1 (binz (V c main_arg1)) (fun t _ => flushed_eq V c t) cover

end Cert.KernelIdeal.Binarize

end
-- ==== Proof.Region1.lean ====
/-
  The second kernel region: the product, row block by row block.

  The grid has thirty-two points; point `t` reads rows `256·t … 256·t + 255` of the left operand and the WHOLE right
  operand (its one block, at block index zero), and writes the same rows of the result. The body forms the product in
  two limbs: the loaded rows times the right operand, plus (the loaded rows minus themselves) times the right operand,
  each a matrix-unit product into a zero accumulator, the changes of float format in between the identity on the
  extended reals. An entry `(p, q)` of a product depends on row `p` of the left operand and column `q` of the right, so
  what point `t` writes back is block `t` of ONE whole-array function, `split2` of the two arrays as the region finds
  them; the thirty-two blocks tile the result (row `r` lies in block `r / 256`), so the result ends holding `split2`.
-/
import proofs.«108958_j14027363189197_2_alg».proof.Proof.Gen.KernelIdeal.Frame
import proofs.«108958_j14027363189197_2_alg».proof.Proof.Spec
import Idealize.ShloMosaic.Lib.Pipeline.Value

set_option maxRecDepth 16384

noncomputable section

namespace Cert.KernelIdeal.Product

open Idealize.ShloMosaic Idealize.ShloMosaic.TcCoe Idealize.SL.Sem Idealize.ShloMosaic.ValueIdx
open Cert.KernelIdeal Cert.KernelIdeal.Gen Cert.BinLinear Cert.Dense

variable (V : (c : Dev nD) → (b : Ref sig .tc) → Buf (Elt Ideal) ((c : Thread nD τ).loc b))

theorem origin : (![0, 0] : Fin 2 → Nat) = fun _ => 0 := funext fun a => by fin_cases a <;> rfl

/-- The body's stored value is the two-limb product of its loaded blocks. -/
theorem pay_eq (x0 : Vec Ideal S256x4096 .f32) (x1 : Vec Ideal S4096x4096 .bf16) :
    k1_pay1 (F := Ideal) x0 x1 = split2 x0 x1 := by
  unfold k1_pay1
  dsimp only
  rw [shapeCast_self]
  show addf (matmul (F := Ideal) dot_S256x4096_S4096x4096_S256x4096_1_0_0_1_n_n none x0 x1 (constant S256x4096 .f32 0x00000000#32))
      (matmul (F := Ideal) dot_S256x4096_S4096x4096_S256x4096_1_0_0_1_n_n none (fun k => x0 k - x0 k) x1 (constant S256x4096 .f32 0x00000000#32)) = _
  rw [matmul_zero_eq_mm _ rfl rfl rfl rfl rfl rfl, matmul_zero_eq_mm _ rfl rfl rfl rfl rfl rfl]
  rfl

/-- The printed index maps, decided over the grid: the left operand's block and the result's block of a point are the
    same row block, below thirty-two, at column block zero; the right operand's block is always the one at the origin. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) ≤ 31 ∧ win1_2.index t (1 : Fin 2) = 0 :=
  (by decide +kernel : ∀ t : Fin grid1.N, _)

/-- Every row block is some point's. -/
theorem idx_onto : ∀ q0 : Fin 32, ∃ t : Fin cfg1.N, win1_2.index t = ![q0.val, 0] :=
  (by decide +kernel : ∀ q0 : Fin 32, ∃ t : Fin grid1.N, win1_2.index t = ![q0.val, 0])

/-- What point `t` writes back is block `t` of the two-limb product of the arrays as the region finds them. -/
theorem flushed_eq (c : Dev nD) (t : Fin cfg1.N) :
    (dat1 V c).flushed 2 t = ((cfg1.win 2).blk t).view.read (Elt Ideal) (split2 (V c main_arg0) (V c main_call0_v0)) := by
  show (cfg1.win 2).cut (grid1.coords t) ((dat1 V c).after 2 t) = _
  rw [after1_2]
  unfold out1_2
  rw [View.canon_unit_zero origin]
  simp only [View.ld_unit_zero (S := S256x4096) origin, View.ld_unit_zero (S := S4096x4096) origin]
  rw [pay_eq]
  obtain ⟨e0, e1, e2, e3, e4, e5⟩ := idx_facts t
  funext j
  show split2 (fun y => V c main_arg0 (((cfg1.win 0).blk t).view.emb y)) (fun y => V c main_call0_v0 (((cfg1.win 1).blk t).view.emb y)) j
    = split2 (V c main_arg0) (V c main_call0_v0) (((cfg1.win 2).blk t).view.emb j)
  refine split2_congr (V c main_arg0) _ (V c main_call0_v0) _ (((cfg1.win 2).blk t).view.emb j) j (fun k => ?_) (fun k => ?_)
  · show V c main_arg0 (((cfg1.win 0).blk t).view.emb (ix2 (c0 j) k)) = V c main_arg0 (ix2 (c0 (((cfg1.win 2).blk t).view.emb j)) k)
    refine congrArg (V c main_arg0) (funext fun a => Fin.ext ?_)
    match a with
    | ⟨0, _⟩ => show win1_0.index t (0 : Fin 2) * 256 + 1 * (j 0).val = win1_2.index t (0 : Fin 2) * 256 + 1 * (j 0).val; omega
    | ⟨1, _⟩ => show win1_0.index t (1 : Fin 2) * 4096 + 1 * k.val = k.val; omega
  · show V c main_call0_v0 (((cfg1.win 1).blk t).view.emb (ix2 k (c1 j))) = V c main_call0_v0 (ix2 k (c1 (((cfg1.win 2).blk t).view.emb j)))
    refine congrArg (V c main_call0_v0) (funext fun a => Fin.ext ?_)
    match a with
    | ⟨0, _⟩ => show win1_1.index t (0 : Fin 2) * 4096 + 1 * k.val = k.val; omega
    | ⟨1, _⟩ => show win1_1.index t (1 : Fin 2) * 4096 + 1 * (j 1).val = win1_2.index t (1 : Fin 2) * 4096 + 1 * (j 1).val; omega

/-- An index of the array is in point `t`'s block iff each coordinate is in the block's range on its axis. -/
theorem mem_blk (t : Fin cfg1.N) (i : S8192x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v0).slice (win1_2.rect t)).set ↔ _
  rw [View.set_slice_whole, Rect.mem_set_unit]
  exact Iff.rfl

/-- The thirty-two blocks tile the result: row `r` lies in block `r / 256`. -/
theorem cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := idx_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 4096 ≤ (i 1).val ∧ (i 1).val < win1_2.index t (1 : Fin 2) * 4096 + 4096; omega

/-- The result array after the region: the two-limb product of the two arrays as the region finds them. -/
theorem final (c : Dev nD) : (dat1 V c).arrAt 2 cfg1.N = split2 (V c main_arg0) (V c main_call0_v0) :=
  (dat1 V c).arrAt_eq_of_cover 2 (split2 (V c main_arg0) (V c main_call0_v0)) (fun t _ => flushed_eq V c t) cover

end Cert.KernelIdeal.Product

end
-- ==== Proof.KernelRun.lean ====
/-
  The kernel program's run, with its result named.

  The program is two kernel regions in sequence. The first leaves the binarized weights in an intermediate array;
  the second reads the input and that array and leaves their two-limb product in the result array. Walking the
  buffer contents from the launch through both regions: the result array ends holding
  `split2 x (binz w)` of the launch contents `x`, `w` of the two arguments, and the arguments end as launched.
-/
import proofs.«108958_j14027363189197_2_alg».proof.Proof.Gen.KernelIdeal.Frame
import proofs.«108958_j14027363189197_2_alg».proof.Proof.Region0
import proofs.«108958_j14027363189197_2_alg».proof.Proof.Region1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.BinLinear

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents the
    second region leaves (`W2` at the result's buffer) and the argument arrays as launched: the launch over the two
    regions' segments, the last thread state read against the final state. -/
theorem run_named : θ_run defs (onTc (τ := τ) (main (F := F))) ⟨m, fun _ => 0, ρ⟩ (fun r => ∀ c : Dev nD,
      r.2.mem ((c.tc : Thread nD τ).loc main_v0) = W2 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v0 (by decide)),
       (h c _ (mem_uc main_arg0 (by decide))).trans (W2_main_arg0 m ρ c),
       (h c _ (mem_uc main_arg1 (by decide))).trans (W2_main_arg1 m ρ c)⟩)

end Cert.KernelIdeal.Run

namespace Cert.KernelIdeal.Run

open Idealize.ShloMosaic Idealize.ShloMosaic.TcCoe Idealize.SL.Sem
open Cert.KernelIdeal Cert.KernelIdeal.Gen Cert.BinLinear

variable (m : (ℓ : Loc nD τ sig) → Buf (Elt Ideal) ℓ) (ρ : Dev nD → PrngReg)

/-- The second region finds the input as launched: the first region does not touch it. -/
theorem entry_arg0 (c : Dev nD) : V1 m ρ c main_arg0 = m ((c : Thread nD τ).loc main_arg0) :=
  W1_of_ne m ρ c main_arg0 (by decide)

/-- The second region finds the intermediate array at the binarized launch weights: what the first region leaves. -/
theorem entry_wb (c : Dev nD) : V1 m ρ c main_call0_v0 = binz (m ((c : Thread nD τ).loc main_arg1)) :=
  (W1_arr m ρ c 1).trans (Binarize.final (V0 m ρ) c)

/-- The result array after both regions, as a function of the launch contents of the arguments. -/
theorem result_eq (c : Dev nD) :
    W2 m ρ c (Proc.devRef .tc main_v0)
      = split2 (m ((c : Thread nD τ).loc main_arg0)) (binz (m ((c : Thread nD τ).loc main_arg1))) := by
  refine (W2_arr m ρ c 2).trans ?_
  rw [Product.final (V1 m ρ) c, entry_arg0, entry_wb]

/-- The program's run with the result as a function of the arguments. -/
theorem run : θ_run defs (onTc (τ := τ) (main (F := Ideal))) ⟨m, fun _ => 0, ρ⟩ (fun r => ∀ c : Dev nD,
      r.2.mem ((c.tc : Thread nD τ).loc main_v0)
        = split2 (m ((c : Thread nD τ).loc main_arg0)) (binz (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_named m ρ)

end Cert.KernelIdeal.Run

end
-- ==== Proof.RefValue.lean ====
/-
  The reference's result is the layer.

  The reference clamps the weights to `[-1, 1]`, replaces each by `+1` when it is `≥ 0` and by `-1` otherwise, and
  multiplies the input by the matrix so obtained. Clamping does not move a weight across zero, so the matrix is the
  binarized weights themselves, and a plain product of two matrices on the host is the matrix product `mm`.
-/
import proofs.«108958_j14027363189197_2_alg».proof.Proof.Gen.ReferenceIdeal.Read
import proofs.«108958_j14027363189197_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.BinLinear Cert.Dense

/-- The matrix the reference multiplies by: the signs of the clamped weights, which are the signs of the weights. -/
theorem weights_eq (w : FVec Ideal S4096x4096 .f32) : val_main_v4 (F := Ideal) w = binz w := by
  funext i
  rw [val_main_v4_apply, val_main_v3_apply, val_main_v2_apply, val_main_v0_apply, val_main_call0_v2_apply,
    val_main_call0_v4_apply, val_main_call0_v3_apply, val_main_cst_0_apply, val_main_call0_v1_apply,
    val_main_call0_v0_apply, val_main_cst_apply, val_main_v1_apply, val_main_cst_1_apply, val_main_call1_v0_apply,
    val_main_cst_2_apply, val_main_call1_v1_apply, val_main_cst_3_apply]
  exact sgnw_clip (w i)

/-- The reference's result: the input times the binarized weights. -/
theorem result_eq (x : FVec Ideal S8192x4096 .f32) (w : FVec Ideal S4096x4096 .f32) :
    val_main_v5 (F := Ideal) x w = out x w := by
  unfold val_main_v5
  rw [hostDot_eq_mm _ rfl rfl rfl rfl rfl rfl, weights_eq]
  rfl

end Cert.ReferenceIdeal.RefValue

end
-- ==== Proof.lean ====
/-
  A binarized linear layer, as a kernel program and as its reference, on the extended reals.

  The kernel program runs two kernels. The first replaces every weight by its sign, zero counted as positive
  (`+1` when `0 ≤ a`, else `-1`), once, into an intermediate array. The second multiplies the input by that array in
  two limbs, row block by row block: the input rows, plus the input rows minus themselves, each times the binarized
  weights. The reference clamps the weights to `[-1, 1]`, takes the same sign, and multiplies once.

  On the extended reals the changes of float format are the identity, a matrix-unit product into a zero accumulator
  and the host's product are both the matrix product `mm`, and clamping does not move a weight across zero. What is
  left is the second limb: `a - a = 0` for a real `a` and `0 · y = 0` for every `y`, so it vanishes exactly because the
  precondition makes every entry of the input a real number (at `±∞` it would be `-∞`). Both programs therefore end
  with `mm x (binz w)` of the launch contents `x`, `w`.

  The three frame claims are the generated frames (the reference's is its generated run with the result dropped);
  the one entry of the idealization ledger — widening back a narrowed value is the identity on the extended reals —
  is its rule's statement.
-/
import proofs.«108958_j14027363189197_2_alg».proof.Defs
import proofs.«108958_j14027363189197_2_alg».proof.Proof.Gen.Kernel
import proofs.«108958_j14027363189197_2_alg».proof.Proof.Gen.Kernel.Skeleton
import proofs.«108958_j14027363189197_2_alg».proof.Proof.Gen.Kernel.Launch
import proofs.«108958_j14027363189197_2_alg».proof.Proof.Gen.Kernel.Points
import proofs.«108958_j14027363189197_2_alg».proof.Proof.Gen.Kernel.Frame
import proofs.«108958_j14027363189197_2_alg».proof.Proof.Gen.KernelIdeal
import proofs.«108958_j14027363189197_2_alg».proof.Proof.Gen.KernelIdeal.Skeleton
import proofs.«108958_j14027363189197_2_alg».proof.Proof.Gen.KernelIdeal.Launch
import proofs.«108958_j14027363189197_2_alg».proof.Proof.Gen.KernelIdeal.Points
import proofs.«108958_j14027363189197_2_alg».proof.Proof.Gen.KernelIdeal.Frame
import proofs.«108958_j14027363189197_2_alg».proof.Proof.Gen.ReferenceIdeal
import proofs.«108958_j14027363189197_2_alg».proof.Proof.Gen.Pre_finite_inputs
import proofs.«108958_j14027363189197_2_alg».proof.Proof.Gen.ReferenceIdeal.Run
import proofs.«108958_j14027363189197_2_alg».proof.Proof.Gen.ReferenceIdeal.Read
import proofs.«108958_j14027363189197_2_alg».proof.Proof.Spec
import proofs.«108958_j14027363189197_2_alg».proof.Proof.Finite
import proofs.«108958_j14027363189197_2_alg».proof.Proof.KernelRun
import proofs.«108958_j14027363189197_2_alg».proof.Proof.RefValue
import Idealize.ShloMosaic.Adequacy
import Idealize.ShloMosaic.Init

noncomputable section

namespace Cert.Proof

open Idealize.ShloMosaic Idealize.ShloMosaic.TcCoe Idealize.SL.Sem Cert.BinLinear

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's one entry: a value narrowed and widened back is itself on the extended reals. -/
theorem preserves : Cert.preserves_Kernel_KernelIdeal :=
  IdealRules.truncf_extf.statement Cert.KernelIdeal.S256x4096 .f32 .bf16

/-- Both programs end with the input times the binarized weights: the kernel program's two-limb product loses its
    second limb because the input is finite, and the reference's clamped signs are the signs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.Run.run m ρ)
    exact split2_eq_mm _ _ (@finite_arg0 Cert.Pre_finite_inputs.Gen.facts _ _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v5_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
